-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384 : Shape := ⟨2, ![64, 16384]⟩
abbrev S4096x16384 : Shape := ⟨2, ![4096, 16384]⟩
abbrev S4096 : Shape := ⟨1, ![4096]⟩
abbrev S_ : Shape := ⟨0, ![]⟩

class Facts : Prop where
  bcast_S_S64x16384 : S_.BroadcastsInDim S64x16384 (![] : Fin 0 → Fin S64x16384.rank)
  reducesTo_S64x16384_S_d0_1 : S64x16384.ReducesTo [0, 1] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S64x16384 .f32) (main_arg1 : FVec F S4096x16384 .f32) (main_arg2 : FVec F S4096 .f32) : IVec S_ 1 :=
  let main_v0 : FVec F S64x16384 .f32 := Host.absf main_arg0
  let main_cst : FVec F S_ .f32 := constant S_ .f32 0x7F800000#32
  let main_v1 : FVec F S64x16384 .f32 := broadcastInDim S64x16384 ![] bcast_S_S64x16384 main_cst
  let main_v2 : IVec S64x16384 1 := cmpf .olt main_v0 main_v1
  let main_c : IVec S_ 1 := constantI S_ 1 1#1
  let main_v3 : IVec S_ 1 := (fun x v => Host.reduce IntOp.andi x v reducesTo_S64x16384_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S64x16384 : Shape := ⟨2, ![64, 16384]⟩
abbrev S4096x16384 : Shape := ⟨2, ![4096, 16384]⟩
abbrev S4096 : Shape := ⟨1, ![4096]⟩
abbrev S1x4096 : Shape := ⟨2, ![1, 4096]⟩
abbrev S64x4096 : Shape := ⟨2, ![64, 4096]⟩
abbrev S1x128 : Shape := ⟨2, ![1, 128]⟩
abbrev S128x8192 : Shape := ⟨2, ![128, 8192]⟩
abbrev S64x128 : Shape := ⟨2, ![64, 128]⟩
abbrev S64x8192 : Shape := ⟨2, ![64, 8192]⟩

abbrev nBuf : Space → Nat
  | .hbm => 5
  | .vmem => 9
  | .smem => 0
  | _ => 0

abbrev bufTy : (tb : Table) → Fin (tcTables nBuf tb) → BufTy
  | .hbm, ⟨0, _⟩ => ⟨S64x16384, .f32⟩
  | .hbm, ⟨1, _⟩ => ⟨S4096x16384, .f32⟩
  | .hbm, ⟨2, _⟩ => ⟨S4096, .f32⟩
  | .hbm, ⟨3, _⟩ => ⟨S1x4096, .f32⟩
  | .hbm, ⟨4, _⟩ => ⟨S64x4096, .f32⟩
  | .local _ .vmem, ⟨0, _⟩ => ⟨S64x16384, .f32⟩
  | .local _ .vmem, ⟨1, _⟩ => ⟨S1x128, .f32⟩
  | .local _ .vmem, ⟨2, _⟩ => ⟨S1x128, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | .local _ .vmem, ⟨6, _⟩ => ⟨S128x8192, .f32⟩
  | .local _ .vmem, ⟨7, _⟩ => ⟨S64x128, .f32⟩
  | .local _ .vmem, ⟨8, _⟩ => ⟨S64x128, .f32⟩
  | _, _ => ⟨S64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S1x4096 : S4096.ShapeCasts S1x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S64x16384_S64x8192_0_0 : ∀ a, (![0, 0] : Fin 2 → Nat) a + S64x8192.size a ≤ S64x16384.size a
  h_S64x8192 : 0 < S64x8192.numel
  bitsLt_bf16_f32 : FTy.bits .bf16 < FTy.bits .f32
  inb_S128x8192_S128x8192_0_0 : ∀ a, (![0, 0] : Fin 2 → Nat) a + S128x8192.size a ≤ S128x8192.size a
  h_S128x8192 : 0 < S128x8192.numel
  broadcasts_S1x128_S64x128 : S1x128.Broadcasts S64x128
  inb_S64x16384_S64x8192_0_8192 : ∀ a, (![0, 8192] : Fin 2 → Nat) a + S64x8192.size a ≤ S64x16384.size a
  inb_S64x128_S64x128_0_0 : ∀ a, (![0, 0] : Fin 2 → Nat) a + S64x128.size a ≤ S64x128.size a
  h_S64x128 : 0 < S64x128.numel
  dot_S64x8192_S128x8192_S64x128_1_1_0_0_n_n_wf : DotDims.WF S64x8192 S128x8192 S64x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S64x16384.size a
  hwx0_0 : ∀ i : grid0.Coords, EltTy.bits .f32 = 32 ∨ (Rect.block (s := S64x16384) S64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x4096.size a
  hwx0_1 : ∀ i : grid0.Coords, EltTy.bits .f32 = 32 ∨ (Rect.block (s := S1x4096) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S4096x16384.size a
  hwx0_2 : ∀ i : grid0.Coords, EltTy.bits .f32 = 32 ∨ (Rect.block (s := S4096x16384) S128x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S4096x16384.size a
  hwx0_3 : ∀ i : grid0.Coords, EltTy.bits .f32 = 32 ∨ (Rect.block (s := S4096x16384) S128x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x4096.size a
  hwx0_4 : ∀ i : grid0.Coords, EltTy.bits .f32 = 32 ∨ (Rect.block (s := S64x4096) S64x128.size (cc0_transform_4 i) (hinb0_4 i)).WholeWords (EltTy.packing .f32)

variable [Facts₀]

def dot_S64x8192_S128x8192_S64x128_1_1_0_0_n_n : DotDims S64x8192 S128x8192 S64x128 where
  lhsContracting := [1]
  rhsContracting := [1]
  lhsNonContracting := [0]
  rhsNonContracting := [0]
  lhsBatch := []
  rhsBatch := []
  wf := dot_S64x8192_S128x8192_S64x128_1_1_0_0_n_n_wf

abbrev win0_0 : Pipeline.Window sig grid0 :=
  Pipeline.Window.ofSpec (Memref.whole main_arg0) S64x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x16384 : Shape := ⟨2, ![64, 16384]⟩
abbrev S4096x16384 : Shape := ⟨2, ![4096, 16384]⟩
abbrev S4096 : Shape := ⟨1, ![4096]⟩
abbrev S16384x64 : Shape := ⟨2, ![16384, 64]⟩
abbrev S4096x64 : Shape := ⟨2, ![4096, 64]⟩
abbrev S64x4096 : Shape := ⟨2, ![64, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S64x16384, .f32⟩
  | .hbm, ⟨1, _⟩ => ⟨S4096x16384, .f32⟩
  | .hbm, ⟨2, _⟩ => ⟨S4096, .f32⟩
  | .hbm, ⟨3, _⟩ => ⟨S16384x64, .f32⟩
  | .hbm, ⟨4, _⟩ => ⟨S4096x64, .f32⟩
  | .hbm, ⟨5, _⟩ => ⟨S64x4096, .f32⟩
  | .hbm, ⟨6, _⟩ => ⟨S1x4096, .f32⟩
  | .hbm, ⟨7, _⟩ => ⟨S64x4096, .f32⟩
  | .hbm, ⟨8, _⟩ => ⟨S64x4096, .f32⟩
  | _, _ => ⟨S64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S64x16384_S16384x64_1_0 : S64x16384.Transposes [1, 0] S16384x64
  transposes_S4096x64_S64x4096_1_0 : S4096x64.Transposes [1, 0] S64x4096
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  dot_S4096x16384_S16384x64_S4096x64_1_0_0_1_n_n_wf : DotDims.WF S4096x16384 S16384x64 S4096x64 [1] [0] [0] [1] [] []

variable [Facts₀]

def dot_S4096x16384_S16384x64_S4096x64_1_0_0_1_n_n : DotDims S4096x16384 S16384x64 S4096x64 where
  lhsContracting := [1]
  rhsContracting := [0]
  lhsNonContracting := [0]
  rhsNonContracting := [1]
  lhsBatch := []
  rhsBatch := []
  wf := dot_S4096x16384_S16384x64_S4096x64_1_0_0_1_n_n_wf

class Facts : Prop extends Facts₀ where

variable [Facts]
-- ==== Proof.BodyBits.lean ====
/-
  The kernel's pipeline, point by point.

  The program reshapes the bias to a row [1, 4096] on the host and then runs one pipelined region over 32 grid
  points. At point t the region hands the body five staging buffers: the whole input x [64, 16384] (fetched once,
  its block index constant), the bias row's block of columns 128 t .. 128 t + 127, two blocks of the SAME weight
  array W [4096, 16384] — rows 128 t .. 128 t + 127 at columns 0 .. 8191 and at columns 8192 .. 16383 — and the
  output block [64, 128] of columns 128 t .. 128 t + 127, written back after every point.

  This file states what the region finds in memory at entry (the host reshape applied to the launch memory), what
  each window's block is at a point, what the body leaves in the output block as a pure function of the input
  blocks (one covering store of the body's arithmetic), the body's Hoare triple on arbitrary whole staging
  buffers, and the per-point obligation the pipeline rule asks for. The two weight windows read one array, so the
  array's ownership is dealt between them: the left half-share to the first, the right half-share to the second.
-/
import proofs.«179137_g63496796504161_cont_9to1_m_720_7_alg».proof.Proof.Gen.Kernel.Launch
import proofs.«179137_g63496796504161_cont_9to1_m_720_7_alg».proof.Proof.Gen.Kernel.Skeleton
import proofs.«179137_g63496796504161_cont_9to1_m_720_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory when the region is entered -/

/-- Core `c`'s buffers when the region is entered: the launch memory after the host reshape of the bias. -/
abbrev V (c : Dev nD) (b : Ref sig .tc) : Buf (Elt F) ((c : Thread nD τ).loc b) :=
  StableHlo.after hostOps0 (fun b => m (c, b)) b

/-- The reshape allocates nothing. -/
theorem hostOps0_fresh : (hostOps0 : List (HloOp τ sig (Elt F))).Forall fun op => op.fresh = ∅ := by
  simp only [List.Forall]; repeat' constructor

/-- The program up to the region: the reshape, then the region entered at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    decide))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    decide))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    decide))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The body's accesses -/

abbrev rBias : Rect S1x128 := Rect.unit (s := S1x128) ![0, 0] S1x128.size inb_S1x128_S1x128_0_0
abbrev rXlo : Rect S64x16384 := Rect.unit (s := S64x16384) ![0, 0] S64x8192.size inb_S64x16384_S64x8192_0_0
abbrev rXhi : Rect S64x16384 := Rect.unit (s := S64x16384) ![0, 8192] S64x8192.size inb_S64x16384_S64x8192_0_8192
abbrev rW : Rect S128x8192 := Rect.unit (s := S128x8192) ![0, 0] S128x8192.size inb_S128x8192_S128x8192_0_0
abbrev rOut : Rect S64x128 := Rect.unit (s := S64x128) ![0, 0] S64x128.size inb_S64x128_S64x128_0_0

/-- What the body leaves in the output block, from the contents of the four input buffers: its one store, of the
    body's arithmetic over the left and right halves of x, the bias block and the two weight blocks. -/
def stored (xx : Vec F S64x16384 .f32) (xb : Vec F S1x128 .f32) (w0 w1 : Vec F S128x8192 .f32) : Vec F S64x128 .f32 :=
  View.canon [⟨rOut, k0_pay1 (View.ld xb rBias) (View.ld xx rXlo) (View.ld w0 rW) (View.ld xx rXhi) (View.ld w1 rW)⟩]

/-- The store covers the output block. -/
theorem stored_cover (p0 : Vec F S64x128 .f32) (y : S64x128.Idx) :
    ∃ pc ∈ ([⟨rOut, p0⟩] : List (View.Piece (Elt F) S64x128 .f32)), y ∈ pc.1.set :=
  View.cover_of_tiled [⟨rOut, p0⟩] S64x128.size (by rfl) y

/-! ## The body's triple -/

set_option maxHeartbeats 1000000 in
/-- On any five whole staging buffers — the inputs at contents `xx`, `xb`, `w0`, `w1`, the output block at
    anything — the body runs to the continuation, leaving the inputs as they were and the output block at
    `stored` of the inputs. -/
theorem body_triple (c : Dev nD) (E : Set ℕ) (i : grid0.Coords)
    (a1 : Memref sig .tc .vmem S64x16384 .f32) (h1 : a1.IsWhole) (a2 : Memref sig .tc .vmem S1x128 .f32) (h2 : a2.IsWhole)
    (a3 : Memref sig .tc .vmem S128x8192 .f32) (h3 : a3.IsWhole) (a4 : Memref sig .tc .vmem S128x8192 .f32) (h4 : a4.IsWhole)
    (a5 : Memref sig .tc .vmem S64x128 .f32) (h5 : a5.IsWhole)
    (xx : Vec F S64x16384 .f32) (xb : Vec F S1x128 .f32) (w0 w1 : Vec F S128x8192 .f32) (K : PUnit → sProp 𝕄) :
    iprop(owns (c : Thread nD τ) a1 fullShare xx ∗ owns (c : Thread nD τ) a2 fullShare xb
        ∗ owns (c : Thread nD τ) a3 fullShare w0 ∗ owns (c : Thread nD τ) a4 fullShare w1
        ∗ (∃ d, owns (c : Thread nD τ) a5 fullShare d)
        ∗ (iprop(owns (c : Thread nD τ) a1 fullShare xx ∗ owns (c : Thread nD τ) a2 fullShare xb
            ∗ owns (c : Thread nD τ) a3 fullShare w0 ∗ owns (c : Thread nD τ) a4 fullShare w1
            ∗ owns (c : Thread nD τ) a5 fullShare (stored xx xb w0 w1)) -∗ K ⟨⟩))
      ⊢ wp frame (wpE (defs₀ (F := F)) Variants.none c none) E (cc0__mm_kernel i a1 h1 a2 h2 a3 h3 a4 h4 a5 h5) K := by
  simp only [cc0__mm_kernel_eq_skeleton]; unfold cc0__mm_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_cover _)

/-! ## The pipeline's proof data -/

/-- The proof data of the pipeline on core `c`: the arrays as the region finds them; after the body at point `t`
    each input's buffer at its block and the output's at `stored` of the four input blocks; between points only the
    core's remaining scoped buffers; nothing owed; x and the bias row held outright, the weight array's ownership
    halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => stored (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = stored (iblk m c 0 t) (iblk m c 1 t) (iblk m c 2 t) (iblk m c 3 t) := by dsimp only [dats]

/-- Each input's current staging buffer holds its block at every point, whether or not the pipeline fetched it
    there: a window not fetched at a point has the block index of the point before, and the body left that block in
    place. (x is fetched once; the bias and weight blocks at every point.) -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation, at every point. -/
theorem body_obligation (c : Dev nD) :
    BodyObligation (dats (F := F) m 0 c) (defs₀ (F := F)) Variants.none () Set.univ := fun t => by
  rw [bigSep_W0, bigSep_W0]
  exact sound_body m c t

end Cert.Kernel.Hand

end
-- ==== Proof.LaunchBits.lean ====
/-
  The kernel's run.

  The pipeline rule, applied to the proof data of the body file, gives the program's run: from any launch memory
  with zero counters every weakly fair execution terminates without fault, each window's array ends at what the
  write-backs make of it, and every other unscoped buffer ends as the region found it.

  One thing is particular to this kernel. Two of its input windows read the same weight array, so at entry the
  region owns four distinct arrays for five windows. The weight array's points-to at the full share is split into
  its left and right half-shares, one for each weight window; each window only ever reads, so a half suffices, and
  at exit both halves are read back at the same contents.
-/
import proofs.«179137_g63496796504161_cont_9to1_m_720_7_alg».proof.Proof.BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The four arrays behind the five windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_arg1) ↦{fullShare} W main_arg1) ∗ (((c : Thread nD τ).loc main_v1) ↦{fullShare} W main_v1)) := by
  unfold Pipeline.arrBufs
  exact bigSep_eq_bigSepL_of_eq [main_arg0, main_v0, main_arg1, main_v1] (by decide) (by decide) _

/-- At entry the region's four arrays make the five windows' holdings: x, the bias row and the output outright, the
    weight array's left half-share for its first window and right half-share for its second. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(arr_whole0 0).set_eq_univ, (arr_whole0 1).set_eq_univ, (arr_whole0 2).set_eq_univ, (arr_whole0 4).set_eq_univ]
  show _ ⊢ (iprop((((c : Thread nD τ).loc main_arg0) ↦{fullShare} V m c main_arg0)
      ∗ (((c : Thread nD τ).loc main_v0) ↦{fullShare} V m c main_v0)
      ∗ (((c : Thread nD τ).loc main_arg1) ↦{fullShare.left} V m c main_arg1)
      ∗ (((c : Thread nD τ).loc main_arg1) ↦{fullShare.right} V m c main_arg1)
      ∗ (((c : Thread nD τ).loc main_v1) ↦{fullShare} V m c main_v1)) : sProp 𝕄)
  iintro ⟨Hx, Hb, Hw, Ho⟩
  ihave Hw' := (pointsTo_share (PosShare.mem_left_op_right fullShare)).1 $$ Hw
  icases Hw' with ⟨Hl, Hr⟩
  isplitl [Hx]; · iexact Hx
  isplitl [Hb]; · iexact Hb
  isplitl [Hl]; · iexact Hl
  isplitl [Hr]; · iexact Hr
  iexact Ho

/-! ## The run -/

/-- Between points the body keeps only the core's remaining scoped buffers. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

set_option backward.isDefEq.respectTransparency.types false in
/-- From any launch memory with zero counters, every weakly fair execution of the program terminates without fault;
    at the end each window's array holds what the write-backs made of its entry contents, and every unscoped buffer
    that is no window's array (the bias argument) what the region found there. -/
theorem run_main :
    θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

/-- The program terminates without fault from any launch memory, and its three argument arrays end unchanged: x and
    the weight array are input windows' arrays, never written; the bias is read only by the host reshape and bypasses
    the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 rfl (by decide))).trans (V_main_arg2 m c)⟩)
    (run_main m ρ)

end Cert.Kernel.Hand

end
-- ==== Proof.BodyIdeal.lean ====
/-
  The kernel's pipeline, point by point.

  The program reshapes the bias to a row [1, 4096] on the host and then runs one pipelined region over 32 grid
  points. At point t the region hands the body five staging buffers: the whole input x [64, 16384] (fetched once,
  its block index constant), the bias row's block of columns 128 t .. 128 t + 127, two blocks of the SAME weight
  array W [4096, 16384] — rows 128 t .. 128 t + 127 at columns 0 .. 8191 and at columns 8192 .. 16383 — and the
  output block [64, 128] of columns 128 t .. 128 t + 127, written back after every point.

  This file states what the region finds in memory at entry (the host reshape applied to the launch memory), what
  each window's block is at a point, what the body leaves in the output block as a pure function of the input
  blocks (one covering store of the body's arithmetic), the body's Hoare triple on arbitrary whole staging
  buffers, and the per-point obligation the pipeline rule asks for. The two weight windows read one array, so the
  array's ownership is dealt between them: the left half-share to the first, the right half-share to the second.
-/
import proofs.«179137_g63496796504161_cont_9to1_m_720_7_alg».proof.Proof.Gen.KernelIdeal.Launch
import proofs.«179137_g63496796504161_cont_9to1_m_720_7_alg».proof.Proof.Gen.KernelIdeal.Skeleton
import proofs.«179137_g63496796504161_cont_9to1_m_720_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory when the region is entered -/

/-- Core `c`'s buffers when the region is entered: the launch memory after the host reshape of the bias. -/
abbrev V (c : Dev nD) (b : Ref sig .tc) : Buf (Elt F) ((c : Thread nD τ).loc b) :=
  StableHlo.after hostOps0 (fun b => m (c, b)) b

/-- The reshape allocates nothing. -/
theorem hostOps0_fresh : (hostOps0 : List (HloOp τ sig (Elt F))).Forall fun op => op.fresh = ∅ := by
  simp only [List.Forall]; repeat' constructor

/-- The program up to the region: the reshape, then the region entered at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    decide))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    decide))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    decide))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The body's accesses -/

abbrev rBias : Rect S1x128 := Rect.unit (s := S1x128) ![0, 0] S1x128.size inb_S1x128_S1x128_0_0
abbrev rXlo : Rect S64x16384 := Rect.unit (s := S64x16384) ![0, 0] S64x8192.size inb_S64x16384_S64x8192_0_0
abbrev rXhi : Rect S64x16384 := Rect.unit (s := S64x16384) ![0, 8192] S64x8192.size inb_S64x16384_S64x8192_0_8192
abbrev rW : Rect S128x8192 := Rect.unit (s := S128x8192) ![0, 0] S128x8192.size inb_S128x8192_S128x8192_0_0
abbrev rOut : Rect S64x128 := Rect.unit (s := S64x128) ![0, 0] S64x128.size inb_S64x128_S64x128_0_0

/-- What the body leaves in the output block, from the contents of the four input buffers: its one store, of the
    body's arithmetic over the left and right halves of x, the bias block and the two weight blocks. -/
def stored (xx : Vec F S64x16384 .f32) (xb : Vec F S1x128 .f32) (w0 w1 : Vec F S128x8192 .f32) : Vec F S64x128 .f32 :=
  View.canon [⟨rOut, k0_pay1 (View.ld xb rBias) (View.ld xx rXlo) (View.ld w0 rW) (View.ld xx rXhi) (View.ld w1 rW)⟩]

/-- The store covers the output block. -/
theorem stored_cover (p0 : Vec F S64x128 .f32) (y : S64x128.Idx) :
    ∃ pc ∈ ([⟨rOut, p0⟩] : List (View.Piece (Elt F) S64x128 .f32)), y ∈ pc.1.set :=
  View.cover_of_tiled [⟨rOut, p0⟩] S64x128.size (by rfl) y

/-! ## The body's triple -/

set_option maxHeartbeats 1000000 in
/-- On any five whole staging buffers — the inputs at contents `xx`, `xb`, `w0`, `w1`, the output block at
    anything — the body runs to the continuation, leaving the inputs as they were and the output block at
    `stored` of the inputs. -/
theorem body_triple (c : Dev nD) (E : Set ℕ) (i : grid0.Coords)
    (a1 : Memref sig .tc .vmem S64x16384 .f32) (h1 : a1.IsWhole) (a2 : Memref sig .tc .vmem S1x128 .f32) (h2 : a2.IsWhole)
    (a3 : Memref sig .tc .vmem S128x8192 .f32) (h3 : a3.IsWhole) (a4 : Memref sig .tc .vmem S128x8192 .f32) (h4 : a4.IsWhole)
    (a5 : Memref sig .tc .vmem S64x128 .f32) (h5 : a5.IsWhole)
    (xx : Vec F S64x16384 .f32) (xb : Vec F S1x128 .f32) (w0 w1 : Vec F S128x8192 .f32) (K : PUnit → sProp 𝕄) :
    iprop(owns (c : Thread nD τ) a1 fullShare xx ∗ owns (c : Thread nD τ) a2 fullShare xb
        ∗ owns (c : Thread nD τ) a3 fullShare w0 ∗ owns (c : Thread nD τ) a4 fullShare w1
        ∗ (∃ d, owns (c : Thread nD τ) a5 fullShare d)
        ∗ (iprop(owns (c : Thread nD τ) a1 fullShare xx ∗ owns (c : Thread nD τ) a2 fullShare xb
            ∗ owns (c : Thread nD τ) a3 fullShare w0 ∗ owns (c : Thread nD τ) a4 fullShare w1
            ∗ owns (c : Thread nD τ) a5 fullShare (stored xx xb w0 w1)) -∗ K ⟨⟩))
      ⊢ wp frame (wpE (defs₀ (F := F)) Variants.none c none) E (cc0__mm_kernel i a1 h1 a2 h2 a3 h3 a4 h4 a5 h5) K := by
  simp only [cc0__mm_kernel_eq_skeleton]; unfold cc0__mm_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_cover _)

/-! ## The pipeline's proof data -/

/-- The proof data of the pipeline on core `c`: the arrays as the region finds them; after the body at point `t`
    each input's buffer at its block and the output's at `stored` of the four input blocks; between points only the
    core's remaining scoped buffers; nothing owed; x and the bias row held outright, the weight array's ownership
    halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => stored (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = stored (iblk m c 0 t) (iblk m c 1 t) (iblk m c 2 t) (iblk m c 3 t) := by dsimp only [dats]

/-- Each input's current staging buffer holds its block at every point, whether or not the pipeline fetched it
    there: a window not fetched at a point has the block index of the point before, and the body left that block in
    place. (x is fetched once; the bias and weight blocks at every point.) -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation, at every point. -/
theorem body_obligation (c : Dev nD) :
    BodyObligation (dats (F := F) m 0 c) (defs₀ (F := F)) Variants.none () Set.univ := fun t => by
  rw [bigSep_W0, bigSep_W0]
  exact sound_body m c t

end Cert.KernelIdeal.Hand

end
-- ==== Proof.LaunchIdeal.lean ====
/-
  The kernel's run.

  The pipeline rule, applied to the proof data of the body file, gives the program's run: from any launch memory
  with zero counters every weakly fair execution terminates without fault, each window's array ends at what the
  write-backs make of it, and every other unscoped buffer ends as the region found it.

  One thing is particular to this kernel. Two of its input windows read the same weight array, so at entry the
  region owns four distinct arrays for five windows. The weight array's points-to at the full share is split into
  its left and right half-shares, one for each weight window; each window only ever reads, so a half suffices, and
  at exit both halves are read back at the same contents.
-/
import proofs.«179137_g63496796504161_cont_9to1_m_720_7_alg».proof.Proof.BodyIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The four arrays behind the five windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_arg1) ↦{fullShare} W main_arg1) ∗ (((c : Thread nD τ).loc main_v1) ↦{fullShare} W main_v1)) := by
  unfold Pipeline.arrBufs
  exact bigSep_eq_bigSepL_of_eq [main_arg0, main_v0, main_arg1, main_v1] (by decide) (by decide) _

/-- At entry the region's four arrays make the five windows' holdings: x, the bias row and the output outright, the
    weight array's left half-share for its first window and right half-share for its second. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(arr_whole0 0).set_eq_univ, (arr_whole0 1).set_eq_univ, (arr_whole0 2).set_eq_univ, (arr_whole0 4).set_eq_univ]
  show _ ⊢ (iprop((((c : Thread nD τ).loc main_arg0) ↦{fullShare} V m c main_arg0)
      ∗ (((c : Thread nD τ).loc main_v0) ↦{fullShare} V m c main_v0)
      ∗ (((c : Thread nD τ).loc main_arg1) ↦{fullShare.left} V m c main_arg1)
      ∗ (((c : Thread nD τ).loc main_arg1) ↦{fullShare.right} V m c main_arg1)
      ∗ (((c : Thread nD τ).loc main_v1) ↦{fullShare} V m c main_v1)) : sProp 𝕄)
  iintro ⟨Hx, Hb, Hw, Ho⟩
  ihave Hw' := (pointsTo_share (PosShare.mem_left_op_right fullShare)).1 $$ Hw
  icases Hw' with ⟨Hl, Hr⟩
  isplitl [Hx]; · iexact Hx
  isplitl [Hb]; · iexact Hb
  isplitl [Hl]; · iexact Hl
  isplitl [Hr]; · iexact Hr
  iexact Ho

/-! ## The run -/

/-- Between points the body keeps only the core's remaining scoped buffers. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

set_option backward.isDefEq.respectTransparency.types false in
/-- From any launch memory with zero counters, every weakly fair execution of the program terminates without fault;
    at the end each window's array holds what the write-backs made of its entry contents, and every unscoped buffer
    that is no window's array (the bias argument) what the region found there. -/
theorem run_main :
    θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

/-- The program terminates without fault from any launch memory, and its three argument arrays end unchanged: x and
    the weight array are input windows' arrays, never written; the bias is read only by the host reshape and bypasses
    the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 rfl (by decide))).trans (V_main_arg2 m c)⟩)
    (run_main m ρ)

end Cert.KernelIdeal.Hand

end
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.LinearContraction.lean ====
/-
  The kernel's matrix product read at an index.

  The kernel's dimension numbers contract axis 1 of a [64, 8192] left operand with axis 1 of a [128, 8192] right
  operand, with no batch axis: the product's entry (b, j) pairs row b of the left operand with row j of the right one.
  The four coordinate facts below say so for the operand indices the dimension numbers compute (the free axis of each
  operand follows the result's coordinate, the contracted axis follows the contraction index), and with them the
  product into the zero accumulator at (b, j) is the sum over k < 8192 of lhs (b, k) * rhs (j, k).
-/
import proofs.«179137_g63496796504161_cont_9to1_m_720_7_alg».proof.Proof.Gen.KernelIdeal.Skeleton
import proofs.«179137_g63496796504161_cont_9to1_m_720_7_alg».proof.Proof.LibDotRowsT

noncomputable section

open scoped BigOperators

namespace Cert.Linear

open Idealize.ShloMosaic Idealize.ShloMosaic.ValueIdx Cert.KernelIdeal Cert.KernelIdeal.Gen

/-- The left operand's row is the result's row. -/
theorem contraction_lhs_row (j : S64x128.Idx) (k : dot_S64x8192_S128x8192_S64x128_1_1_0_0_n_n.contr.Idx) :
    (dot_S64x8192_S128x8192_S64x128_1_1_0_0_n_n.lhsIdx j k 0).val = (j 0).val := by
  unfold DotDims.lhsIdx
  rw [dif_neg (show ¬(0 : Fin S64x8192.rank) ∈ dot_S64x8192_S128x8192_S64x128_1_1_0_0_n_n.lhsBatch by decide), dif_pos (show (0 : Fin S64x8192.rank) ∈ dot_S64x8192_S128x8192_S64x128_1_1_0_0_n_n.lhsNonContracting by decide)]
  rfl

/-- The left operand's column is the contraction index. -/
theorem contraction_lhs_col (j : S64x128.Idx) (k : dot_S64x8192_S128x8192_S64x128_1_1_0_0_n_n.contr.Idx) :
    (dot_S64x8192_S128x8192_S64x128_1_1_0_0_n_n.lhsIdx j k 1).val = (k ⟨0, by decide⟩).val :=
  dot_S64x8192_S128x8192_S64x128_1_1_0_0_n_n.lhsIdx_val_of_single rfl j k

/-- The right operand's row is the result's column. -/
theorem contraction_rhs_row (j : S64x128.Idx) (k : dot_S64x8192_S128x8192_S64x128_1_1_0_0_n_n.contr.Idx) :
    (dot_S64x8192_S128x8192_S64x128_1_1_0_0_n_n.rhsIdx j k 0).val = (j 1).val := by
  unfold DotDims.rhsIdx
  rw [dif_neg (show ¬(0 : Fin S128x8192.rank) ∈ dot_S64x8192_S128x8192_S64x128_1_1_0_0_n_n.rhsBatch by decide), dif_pos (show (0 : Fin S128x8192.rank) ∈ dot_S64x8192_S128x8192_S64x128_1_1_0_0_n_n.rhsNonContracting by decide)]
  rfl

/-- The right operand's column is the contraction index. -/
theorem contraction_rhs_col (j : S64x128.Idx) (k : dot_S64x8192_S128x8192_S64x128_1_1_0_0_n_n.contr.Idx) :
    (dot_S64x8192_S128x8192_S64x128_1_1_0_0_n_n.rhsIdx j k 1).val = (k ⟨0, by decide⟩).val :=
  dot_S64x8192_S128x8192_S64x128_1_1_0_0_n_n.rhsIdx_val_of_single rfl j k

/-- The kernel's matrix product into the zero accumulator, at the ideal values, read at (b, j): the inner product of
    row b of the left operand with row j of the right operand. -/
theorem product_apply {φ₁ φ₂ : FTy} (lhs : FVec Ideal S64x8192 φ₁) (rhs : FVec Ideal S128x8192 φ₂) (b : Fin 64) (j : Fin 128) :
    matmul dot_S64x8192_S128x8192_S64x128_1_1_0_0_n_n none lhs rhs (constant (F := Ideal) S64x128 .f32 0x00000000#32) (ix2 b j)
      = ∑ k : Fin 8192, lhs (ix2 b k) * rhs (ix2 j k) :=
  matmul_zero_rowsT dot_S64x8192_S128x8192_S64x128_1_1_0_0_n_n none rfl rfl contraction_lhs_row contraction_lhs_col
    contraction_rhs_row contraction_rhs_col lhs rhs b j

end Cert.Linear

end
-- ==== Proof.LinearSpec.lean ====
/-
  The linear layer as one function of its argument arrays, and the law by which a contraction summed in two halves is
  the whole contraction.

  For x : [64, 16384], w : [4096, 16384] and bias : [4096] the result at (b, n) is
      (sum over k < 16384 of w (n, k) * x (b, k)) + bias n,
  every operation the extended reals' own.  A computation that starts from bias n, adds the sum over the first 8192
  values of k and then adds the sum over the last 8192 reaches the same value: a sum over Fin (8192 + 8192) is the sum
  of its two halves, and addition of extended reals is associative and commutative.  Nothing here asks any value to be
  finite.
-/
import Idealize.ShloMosaic.PureOps.Ideal
import Idealize.ShloMosaic.Lib.ValueIdx

noncomputable section

open scoped BigOperators

namespace Cert.Linear

open Idealize.ShloMosaic Idealize.ShloMosaic.ValueIdx

/-- The linear layer: entry (b, n) of the result is the inner product of row n of w with row b of x, plus bias n. -/
def spec (x : (⟨2, ![64, 16384]⟩ : Shape).Idx → EReal) (w : (⟨2, ![4096, 16384]⟩ : Shape).Idx → EReal)
    (bias : (⟨1, ![4096]⟩ : Shape).Idx → EReal) : (⟨2, ![64, 4096]⟩ : Shape).Idx → EReal :=
  fun i => (∑ k : Fin 16384, w (ix2 (i 1) k) * x (ix2 (i 0) k)) + bias (ix1 (i 1))

/-- The specification at explicit coordinates. -/
theorem spec_apply (x : (⟨2, ![64, 16384]⟩ : Shape).Idx → EReal) (w : (⟨2, ![4096, 16384]⟩ : Shape).Idx → EReal)
    (bias : (⟨1, ![4096]⟩ : Shape).Idx → EReal) (b : Fin 64) (n : Fin 4096) :
    spec x w bias (ix2 b n) = (∑ k : Fin 16384, w (ix2 n k) * x (ix2 b k)) + bias (ix1 n) := rfl

/-- A sum over 16384 = 8192 + 8192 terms is the sum of its first half and its second half. -/
theorem sum_halves {M : Type*} [AddCommMonoid M] (p : Fin 16384 → M) :
    ∑ k : Fin 16384, p k
      = (∑ k : Fin 8192, p ⟨k.val, by omega⟩) + ∑ k : Fin 8192, p ⟨8192 + k.val, by omega⟩ :=
  Fin.sum_univ_add (a := 8192) (b := 8192) p

/-- Starting from a, adding the first half of a sum and then the second half gives the whole sum plus a. -/
theorem halves_after_start {M : Type*} [AddCommMonoid M] (p : Fin 16384 → M) (a : M) :
    (a + ∑ k : Fin 8192, p ⟨k.val, by omega⟩) + ∑ k : Fin 8192, p ⟨8192 + k.val, by omega⟩
      = (∑ k : Fin 16384, p k) + a := by
  rw [sum_halves p, add_assoc, add_comm a]

end Cert.Linear

end
-- ==== Proof.LinearPayload.lean ====
/-
  The kernel's stored value at a grid point is the linear layer's block.

  At grid point t the kernel holds the bias block (columns 128 t .. 128 t + 127 of the bias, as one row), the two
  halves of x along its 16384 columns, and the two matching halves of rows 128 t .. 128 t + 127 of w.  It broadcasts
  the bias row over the 64 rows, adds the product of the first halves and then the product of the second halves;
  the narrowing of the operands to a shorter float format is the identity at the ideal values.  So entry (b, j) of
  the stored block is
      (bias (128 t + j) + sum over k < 8192 of x (b, k) * w (128 t + j, k))
        + sum over k < 8192 of x (b, 8192 + k) * w (128 t + j, 8192 + k),
  which is the specification at (b, 128 t + j): the factors commute, and a start value followed by the two halves of
  a sum is the whole sum plus the start value.
-/
import proofs.«179137_g63496796504161_cont_9to1_m_720_7_alg».proof.Proof.LinearContraction
import proofs.«179137_g63496796504161_cont_9to1_m_720_7_alg».proof.Proof.LinearSpec
import Idealize.ShloMosaic.Lib.ValueLayout

noncomputable section

open scoped BigOperators

namespace Cert.Linear

open Idealize.ShloMosaic Idealize.ShloMosaic.ValueIdx Cert.KernelIdeal Cert.KernelIdeal.Gen

/-- The stored value at (b, j) over the five loaded vectors alone: the bias row's entry j, plus the inner product of
    row b of the first x half with row j of the first w half, plus the same for the second halves. -/
theorem payload_apply (v0 : Vec Ideal S1x128 .f32) (v2 : Vec Ideal S64x8192 .f32) (v4 : Vec Ideal S128x8192 .f32)
    (v9 : Vec Ideal S64x8192 .f32) (v11 : Vec Ideal S128x8192 .f32) (b : Fin 64) (j : Fin 128) :
    k0_pay1 (F := Ideal) v0 v2 v4 v9 v11 (ix2 b j)
      = (v0 (ix2 (0 : Fin 1) j) + ∑ k : Fin 8192, v2 (ix2 b k) * v4 (ix2 j k))
          + ∑ k : Fin 8192, v9 (ix2 b k) * v11 (ix2 j k) := by
  unfold k0_pay1
  show (broadcastTo S64x128 (shapeCast S1x128 v0 shapeCasts_S1x128_S1x128) broadcasts_S1x128_S64x128 (ix2 b j)
        + matmul dot_S64x8192_S128x8192_S64x128_1_1_0_0_n_n none (truncf .bf16 v2 bitsLt_bf16_f32) (truncf .bf16 v4 bitsLt_bf16_f32)
            (constant (F := Ideal) S64x128 .f32 0x00000000#32) (ix2 b j))
        + matmul dot_S64x8192_S128x8192_S64x128_1_1_0_0_n_n none (truncf .bf16 v9 bitsLt_bf16_f32) (truncf .bf16 v11 bitsLt_bf16_f32)
            (constant (F := Ideal) S64x128 .f32 0x00000000#32) (ix2 b j) = _
  rw [product_apply, product_apply, shapeCast_self, broadcastTo_1b_ab_apply]
  rfl

/-- At grid point t, with the five loaded vectors the blocks of the arguments that the point's windows hold, the stored
    block's entry (b, j) is the linear layer's entry (b, 128 t + j). -/
theorem payload_is_spec (t : Fin 32)
    (x : (⟨2, ![64, 16384]⟩ : Shape).Idx → EReal) (w : (⟨2, ![4096, 16384]⟩ : Shape).Idx → EReal)
    (bias : (⟨1, ![4096]⟩ : Shape).Idx → EReal)
    (v0 : Vec Ideal S1x128 .f32) (v2 : Vec Ideal S64x8192 .f32) (v4 : Vec Ideal S128x8192 .f32)
    (v9 : Vec Ideal S64x8192 .f32) (v11 : Vec Ideal S128x8192 .f32)
    (h0 : ∀ j : Fin 128, v0 (ix2 (0 : Fin 1) j) = bias (ix1 (⟨128 * t.val + j.val, by omega⟩ : Fin 4096)))
    (h2 : ∀ (b : Fin 64) (k : Fin 8192), v2 (ix2 b k) = x (ix2 b (⟨k.val, by omega⟩ : Fin 16384)))
    (h9 : ∀ (b : Fin 64) (k : Fin 8192), v9 (ix2 b k) = x (ix2 b (⟨8192 + k.val, by omega⟩ : Fin 16384)))
    (h4 : ∀ (j : Fin 128) (k : Fin 8192),
      v4 (ix2 j k) = w (ix2 (⟨128 * t.val + j.val, by omega⟩ : Fin 4096) (⟨k.val, by omega⟩ : Fin 16384)))
    (h11 : ∀ (j : Fin 128) (k : Fin 8192),
      v11 (ix2 j k) = w (ix2 (⟨128 * t.val + j.val, by omega⟩ : Fin 4096) (⟨8192 + k.val, by omega⟩ : Fin 16384)))
    (b : Fin 64) (j : Fin 128) :
    k0_pay1 (F := Ideal) v0 v2 v4 v9 v11 (ix2 b j)
      = spec x w bias (ix2 b (⟨128 * t.val + j.val, by omega⟩ : Fin 4096)) := by
  rw [payload_apply, spec_apply, h0 j]
  have first : ∑ k : Fin 8192, v2 (ix2 b k) * v4 (ix2 j k)
      = ∑ k : Fin 8192, (fun k : Fin 16384 => w (ix2 (⟨128 * t.val + j.val, by omega⟩ : Fin 4096) k) * x (ix2 b k))
          ⟨k.val, by omega⟩ :=
    Finset.sum_congr rfl fun k _ => by rw [h2 b k, h4 j k, mul_comm]
  have second : ∑ k : Fin 8192, v9 (ix2 b k) * v11 (ix2 j k)
      = ∑ k : Fin 8192, (fun k : Fin 16384 => w (ix2 (⟨128 * t.val + j.val, by omega⟩ : Fin 4096) k) * x (ix2 b k))
          ⟨8192 + k.val, by omega⟩ :=
    Finset.sum_congr rfl fun k _ => by rw [h9 b k, h11 j k, mul_comm]
  rw [first, second]
  exact halves_after_start (M := EReal)
    (fun k : Fin 16384 => w (ix2 (⟨128 * t.val + j.val, by omega⟩ : Fin 4096) k) * x (ix2 b k))
    (bias (ix1 (⟨128 * t.val + j.val, by omega⟩ : Fin 4096)))

end Cert.Linear

end
-- ==== Proof.BlocksIdeal.lean ====
/-
  What the kernel computes.

  After the run the output array [64, 4096] holds, at (b, n), the sum over all 16384 columns k of W(n, k) · x(b, k),
  plus bias(n). The pipeline writes the array back one block of 128 columns per grid point; at point t the body
  stored, at (b, j), the bias of column 128 t + j plus the sum over the first 8192 columns plus the sum over the last
  8192 columns of x(b, ·) against row 128 t + j of W. Each of the body's five loads reads a rectangle of the launch
  arrays: the bias row's block is the bias at columns 128 t .., the x loads are the left and right halves of x, the
  two weight blocks are rows 128 t .. of W at the left and right halves of its columns. With those five readings the
  stored value is the specification at (b, 128 t + j), and the 32 blocks cover the array.
-/
import proofs.«179137_g63496796504161_cont_9to1_m_720_7_alg».proof.Proof.LaunchIdeal
import proofs.«179137_g63496796504161_cont_9to1_m_720_7_alg».proof.Proof.LinearPayload
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The launch arrays, read where the body's loads read them -/

/-- The bias row the region finds is the bias argument laid out as one row [1, 4096]. -/
theorem bias_row (c : Dev nD) (n : Fin 4096) :
    V m c main_v0 (ix2 (0 : Fin 1) n) = m ((c : Thread nD τ).loc main_arg2) (ix1 n) := by
  have e : (V m c main_v0 : S1x4096.Idx → EReal)
      = shapeCast S1x4096 (m ((c : Thread nD τ).loc main_arg2)) shapeCasts_S4096_S1x4096 := by
    dsimp only [V, hostOps0]; after_results; rfl
  rw [e]; exact shapeCast_a_1a_apply _ _ 0 n

theorem zero_offsets : (![0, 0] : Fin 2 → Nat) = fun _ => 0 := funext fun a => by fin_cases a <;> rfl

/-- The windows' block indices at grid point `t`, decided over the grid: x always at block (0, 0); the bias row and the
    output at column block `t`; the weight windows at row block `t`, column block 0 and column block 1. -/
theorem block_index : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = t.val ∧ win0_2.index t (1 : Fin 2) = 0
    ∧ win0_3.index t (0 : Fin 2) = t.val ∧ win0_3.index t (1 : Fin 2) = 1
    ∧ win0_4.index t (0 : Fin 2) = 0 ∧ win0_4.index t (1 : Fin 2) = t.val :=
  (by decide +kernel : ∀ t : Fin grid0.N, _)

theorem point_lt (t : Fin cfg0.N) : t.val < 32 := Nat.lt_of_lt_of_eq t.isLt N_0

/-- The bias block at point `t` is the bias at columns 128 t .. 128 t + 127. -/
theorem read_bias (c : Dev nD) (t : Fin cfg0.N) (j : Fin 128) :
    View.ld (iblk m c 1 t) rBias (ix2 (0 : Fin 1) j)
      = m ((c : Thread nD τ).loc main_arg2) (ix1 (⟨128 * t.val + j.val, by have := point_lt t; omega⟩ : Fin 4096)) := by
  rw [View.ld_unit_zero (S := S1x128) zero_offsets]
  obtain ⟨-, -, e0, e1, -⟩ := block_index t
  refine Eq.trans ?_ (bias_row m c _)
  show V m c main_v0 (((cfg0.win 1).blk t).view.emb (ix2 (0 : Fin 1) j)) = V m c main_v0 _
  refine congrArg _ (funext fun a => Fin.ext ?_)
  match a with
  | ⟨0, _⟩ => show win0_1.index t (0 : Fin 2) * 1 + 1 * 0 = 0; omega
  | ⟨1, _⟩ => show win0_1.index t (1 : Fin 2) * 128 + 1 * j.val = 128 * t.val + j.val; omega

/-- The body's first load of x reads its columns 0 .. 8191, -/
theorem read_x_lo (c : Dev nD) (t : Fin cfg0.N) (b : Fin 64) (k : Fin 8192) :
    View.ld (iblk m c 0 t) rXlo (ix2 b k)
      = m ((c : Thread nD τ).loc main_arg0) (ix2 b (⟨k.val, by omega⟩ : Fin 16384)) := by
  obtain ⟨e0, e1, -⟩ := block_index t
  rw [← V_main_arg0 m c]
  show V m c main_arg0 (((cfg0.win 0).blk t).view.emb (rXlo.idx (ix2 b k))) = V m c main_arg0 _
  refine congrArg _ (funext fun a => Fin.ext ?_)
  match a with
  | ⟨0, _⟩ => show win0_0.index t (0 : Fin 2) * 64 + 1 * (0 + 1 * b.val) = b.val; omega
  | ⟨1, _⟩ => show win0_0.index t (1 : Fin 2) * 16384 + 1 * (0 + 1 * k.val) = k.val; omega

/-- and its second its columns 8192 .. 16383. -/
theorem read_x_hi (c : Dev nD) (t : Fin cfg0.N) (b : Fin 64) (k : Fin 8192) :
    View.ld (iblk m c 0 t) rXhi (ix2 b k)
      = m ((c : Thread nD τ).loc main_arg0) (ix2 b (⟨8192 + k.val, by omega⟩ : Fin 16384)) := by
  obtain ⟨e0, e1, -⟩ := block_index t
  rw [← V_main_arg0 m c]
  show V m c main_arg0 (((cfg0.win 0).blk t).view.emb (rXhi.idx (ix2 b k))) = V m c main_arg0 _
  refine congrArg _ (funext fun a => Fin.ext ?_)
  match a with
  | ⟨0, _⟩ => show win0_0.index t (0 : Fin 2) * 64 + 1 * (0 + 1 * b.val) = b.val; omega
  | ⟨1, _⟩ => show win0_0.index t (1 : Fin 2) * 16384 + 1 * (8192 + 1 * k.val) = 8192 + k.val; omega

/-- The first weight block at point `t` is rows 128 t .. of W at columns 0 .. 8191, -/
theorem read_w_lo (c : Dev nD) (t : Fin cfg0.N) (j : Fin 128) (k : Fin 8192) :
    View.ld (iblk m c 2 t) rW (ix2 j k)
      = m ((c : Thread nD τ).loc main_arg1)
          (ix2 (⟨128 * t.val + j.val, by have := point_lt t; omega⟩ : Fin 4096) (⟨k.val, by omega⟩ : Fin 16384)) := by
  rw [View.ld_unit_zero (S := S128x8192) zero_offsets]
  obtain ⟨-, -, -, -, e0, e1, -⟩ := block_index t
  rw [← V_main_arg1 m c]
  show V m c main_arg1 (((cfg0.win 2).blk t).view.emb (ix2 j k)) = V m c main_arg1 _
  refine congrArg _ (funext fun a => Fin.ext ?_)
  match a with
  | ⟨0, _⟩ => show win0_2.index t (0 : Fin 2) * 128 + 1 * j.val = 128 * t.val + j.val; omega
  | ⟨1, _⟩ => show win0_2.index t (1 : Fin 2) * 8192 + 1 * k.val = k.val; omega

/-- and the second the same rows at columns 8192 .. 16383. -/
theorem read_w_hi (c : Dev nD) (t : Fin cfg0.N) (j : Fin 128) (k : Fin 8192) :
    View.ld (iblk m c 3 t) rW (ix2 j k)
      = m ((c : Thread nD τ).loc main_arg1)
          (ix2 (⟨128 * t.val + j.val, by have := point_lt t; omega⟩ : Fin 4096) (⟨8192 + k.val, by omega⟩ : Fin 16384)) := by
  rw [View.ld_unit_zero (S := S128x8192) zero_offsets]
  obtain ⟨-, -, -, -, -, -, e0, e1, -⟩ := block_index t
  rw [← V_main_arg1 m c]
  show V m c main_arg1 (((cfg0.win 3).blk t).view.emb (ix2 j k)) = V m c main_arg1 _
  refine congrArg _ (funext fun a => Fin.ext ?_)
  match a with
  | ⟨0, _⟩ => show win0_3.index t (0 : Fin 2) * 128 + 1 * j.val = 128 * t.val + j.val; omega
  | ⟨1, _⟩ => show win0_3.index t (1 : Fin 2) * 8192 + 1 * k.val = 8192 + k.val; omega

/-! ## What each point writes back, and the array after the run -/

/-- The specification at the launch arrays: at (b, n), the sum over k of W(n, k) · x(b, k), plus bias(n). -/
abbrev result (c : Dev nD) : S64x4096.Idx → EReal :=
  Cert.Linear.spec (m ((c : Thread nD τ).loc main_arg0)) (m ((c : Thread nD τ).loc main_arg1)) (m ((c : Thread nD τ).loc main_arg2))

/-- The block the body stores at point `t` is the specification at columns 128 t .. 128 t + 127: the body's
    arithmetic over its five loads, each load read off the launch arrays. -/
theorem stored_block (c : Dev nD) (t : Fin cfg0.N) (b : Fin 64) (j : Fin 128) :
    k0_pay1 (F := Ideal) (View.ld (iblk m c 1 t) rBias) (View.ld (iblk m c 0 t) rXlo) (View.ld (iblk m c 2 t) rW)
        (View.ld (iblk m c 0 t) rXhi) (View.ld (iblk m c 3 t) rW) (ix2 b j)
      = result m c (ix2 b (⟨128 * t.val + j.val, by have := point_lt t; omega⟩ : Fin 4096)) :=
  Cert.Linear.payload_is_spec ⟨t.val, point_lt t⟩ _ _ _ _ _ _ _ _
    (read_bias m c t) (read_x_lo m c t) (read_x_hi m c t) (read_w_lo m c t) (read_w_hi m c t) b j

/-- What point `t` writes back is block `t` of the specification. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after4]
  unfold stored
  rw [View.canon_unit_zero zero_offsets]
  obtain ⟨-, -, -, -, -, -, -, -, e0, e1⟩ := block_index t
  funext y
  have hy : y = ix2 (y 0) (y 1) := eq_ix2 y
  refine (congrArg _ hy).trans ((stored_block m c t (y 0) (y 1)).trans ?_)
  show result m c _ = result m c (((cfg0.win 4).blk t).view.emb y)
  refine congrArg _ (funext fun a => Fin.ext ?_)
  match a with
  | ⟨0, _⟩ => show (y 0).val = win0_4.index t (0 : Fin 2) * 64 + 1 * (y 0).val; omega
  | ⟨1, _⟩ => show 128 * t.val + (y 1).val = win0_4.index t (1 : Fin 2) * 128 + 1 * (y 1).val; omega

/-- An index of the output array lies in point `t`'s block iff each coordinate lies in the block's range on its axis. -/
theorem mem_block (t : Fin cfg0.N) (i : S64x4096.Idx) :
    i ∈ ((cfg0.win 4).blk t).view.set ↔ ∀ a : Fin 2, win0_4.index t a * S64x128.size a ≤ (i a).val
      ∧ (i a).val < win0_4.index t a * S64x128.size a + S64x128.size a := by
  show i ∈ ((View.whole main_v1).slice (win0_4.rect t)).set ↔ _
  rw [View.set_slice_whole, Rect.mem_set_unit]
  exact Iff.rfl

/-- Every index of the output array is written back: column n lies in the block of point n / 128. -/
theorem covered (i : S64x4096.Idx) :
    ∃ t : Fin cfg0.N, (cfg0.win 4).flush t = true ∧ i ∈ ((cfg0.win 4).blk t).view.set := by
  have hi0 : (i 0).val < 64 := (i 0).isLt
  have hi1 : (i 1).val < 4096 := (i 1).isLt
  have hq : (i 1).val / 128 < cfg0.N := Nat.lt_of_lt_of_eq (by omega : (i 1).val / 128 < 32) N_0.symm
  obtain ⟨-, -, -, -, -, -, -, -, e0, e1⟩ := block_index ⟨(i 1).val / 128, hq⟩
  refine ⟨⟨(i 1).val / 128, hq⟩, flush0_4 _, ?_⟩
  rw [mem_block]
  intro a
  match a with
  | ⟨0, _⟩ =>
    show win0_4.index ⟨(i 1).val / 128, hq⟩ (0 : Fin 2) * 64 ≤ (i 0).val
      ∧ (i 0).val < win0_4.index ⟨(i 1).val / 128, hq⟩ (0 : Fin 2) * 64 + 64
    omega
  | ⟨1, _⟩ =>
    show win0_4.index ⟨(i 1).val / 128, hq⟩ (1 : Fin 2) * 128 ≤ (i 1).val
      ∧ (i 1).val < win0_4.index ⟨(i 1).val / 128, hq⟩ (1 : Fin 2) * 128 + 128
    have e1' : win0_4.index ⟨(i 1).val / 128, hq⟩ (1 : Fin 2) = (i 1).val / 128 := e1
    omega

/-- The output array after the run is the specification of the launch arrays. -/
theorem final (c : Dev nD) : (dats m 0 c).arrAt 4 cfg0.N = result m c :=
  (dats m 0 c).arrAt_eq_of_cover 4 (result m c) (fun t _ => flushed_eq m c t) covered

/-! ## The run, read -/

/-- Every weakly fair execution of the program at the ideal values terminates without fault with the output array at
    the specification of the launch arrays and the three argument arrays unchanged. -/
theorem value_run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 4).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 rfl (by decide))).trans (V_main_arg2 m c)⟩)
    (run_main m ρ)

end Cert.KernelIdeal.Hand

end
-- ==== Proof.LinearReference.lean ====
/-
  The reference computes the linear layer.

  The reference transposes x, contracts w against the transposed x over the 16384 columns, transposes the product back,
  broadcasts the bias along the rows and adds.  Read at an index (b, n), the two transposes cancel against the
  contraction's operand indices: the left factor is w at (n, k), the right factor is x at (b, k), and the broadcast
  reads the bias at n.  So the reference's result is the specification, entry by entry, by unfolding alone.
-/
import proofs.«179137_g63496796504161_cont_9to1_m_720_7_alg».proof.Proof.Gen.ReferenceIdeal.Read
import proofs.«179137_g63496796504161_cont_9to1_m_720_7_alg».proof.Proof.LinearSpec

noncomputable section

open scoped BigOperators

namespace Cert.Linear

open Idealize.ShloMosaic Idealize.ShloMosaic.ValueIdx Cert.ReferenceIdeal Cert.ReferenceIdeal.Read

/-- The contraction's left operand index at result entry (b, n) and position k is (n, k) of w. -/
theorem left_index (i : S64x4096.Idx) (k : Fin 16384) : lidx_main_v1 (idx_main_v2 i) k = ix2 (i 1) k :=
  funext fun a => Fin.ext (by match a with | ⟨0, _⟩ => rfl | ⟨1, _⟩ => rfl)

/-- The contraction's right operand index at result entry (b, n) and position k, read through the first transpose,
    is (b, k) of x. -/
theorem right_index (i : S64x4096.Idx) (k : Fin 16384) :
    idx_main_v0 (ridx_main_v1 (idx_main_v2 i) k) = ix2 (i 0) k :=
  funext fun a => Fin.ext (by match a with | ⟨0, _⟩ => rfl | ⟨1, _⟩ => rfl)

/-- The two broadcasts read the bias at the result entry's column. -/
theorem bias_index (i : S64x4096.Idx) : idx_main_v3 (idx_main_v4 i) = ix1 (i 1) :=
  funext fun a => Fin.ext (by match a with | ⟨0, _⟩ => rfl)

/-- The reference's result is the linear layer of its three arguments. -/
theorem reference_is_spec (x0 : (⟨S64x16384, .f32⟩ : BufTy).Contents (Elt Ideal))
    (x1 : (⟨S4096x16384, .f32⟩ : BufTy).Contents (Elt Ideal)) (x2 : (⟨S4096, .f32⟩ : BufTy).Contents (Elt Ideal)) :
    val_main_v5 (F := Ideal) x0 x1 x2 = spec x0 x1 x2 := by
  funext i
  rw [val_main_v5_apply, val_main_v2_apply, val_main_v1_apply, val_main_v4_apply, val_main_v3_apply]
  simp only [val_main_v0_apply, left_index, right_index, bias_index, Ideal.addf_def]
  rfl

end Cert.Linear

end
-- ==== Proof.lean ====
/-
  The kernel computes out = x · Wᵀ + bias for x [64, 16384], W [4096, 16384], bias [4096], as one pipelined region
  of 32 grid points, each producing a block of 128 output columns as
      (bias block + x[:, 0:8192] · W_block[:, 0:8192]ᵀ) + x[:, 8192:16384] · W_block[:, 8192:16384]ᵀ,
  its operands narrowed to bf16 before each product. The reference computes (W · xᵀ)ᵀ + bias with one contraction
  over all 16384 columns.

  At the ideal values a change of float format is the identity and each product is the exact sum over its
  contraction index, so both programs give, at (b, n), the sum over k of W(n, k) · x(b, k) plus bias(n): the
  kernel's value is that sum split at k = 8192 and started from the bias, and the two agree by commutativity and
  associativity of addition and commutativity of multiplication on the extended reals. No law used needs a finite
  operand, so the precondition is never opened.

  The three frame conjuncts: each kernel program's run is the pipeline rule applied to the body's triple, the two
  weight windows sharing one array at half-shares; the reference is a straight line of host operations, whose run
  is generated. The idealization rewrote nothing, so its conjunct is trivial.
-/
import proofs.«179137_g63496796504161_cont_9to1_m_720_7_alg».proof.Defs
import proofs.«179137_g63496796504161_cont_9to1_m_720_7_alg».proof.Proof.Gen.Kernel
import proofs.«179137_g63496796504161_cont_9to1_m_720_7_alg».proof.Proof.Gen.KernelIdeal
import proofs.«179137_g63496796504161_cont_9to1_m_720_7_alg».proof.Proof.Gen.ReferenceIdeal
import proofs.«179137_g63496796504161_cont_9to1_m_720_7_alg».proof.Proof.Gen.Pre_finite_inputs
import proofs.«179137_g63496796504161_cont_9to1_m_720_7_alg».proof.Proof.Gen.ReferenceIdeal.Run
import proofs.«179137_g63496796504161_cont_9to1_m_720_7_alg».proof.Proof.Gen.ReferenceIdeal.Read
import proofs.«179137_g63496796504161_cont_9to1_m_720_7_alg».proof.Proof.LaunchBits
import proofs.«179137_g63496796504161_cont_9to1_m_720_7_alg».proof.Proof.BlocksIdeal
import proofs.«179137_g63496796504161_cont_9to1_m_720_7_alg».proof.Proof.LinearReference
import Idealize.ShloMosaic.Adequacy
import Idealize.ShloMosaic.Init

noncomputable section

namespace Cert.Proof

open Idealize.ShloMosaic Idealize.ShloMosaic.TcCoe Idealize.SL.Sem

/-- The kernel as printed terminates without fault and leaves its arguments unchanged. -/
theorem frame_kernel : Cert.frame_Kernel := fun m ρ _ => Cert.Kernel.Hand.frame m ρ

/-- So does its idealization. -/
theorem frame_kernel_ideal : Cert.frame_KernelIdeal := fun m ρ _ => Cert.KernelIdeal.Hand.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the output at the sum over k of
    W(n, k) · x(b, k) plus bias(n) of those arguments. -/
theorem algebraic : Cert.algebraic_KernelIdeal_ReferenceIdeal := by
  intro m ρ m' ρ' _ hagree
  refine ⟨fun c => Cert.KernelIdeal.Hand.result m c, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.Linear.reference_is_spec, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
